-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16384 : Shape := ⟨2, ![128, 16384]⟩
abbrev S_ : Shape := ⟨0, ![]⟩

class Facts : Prop where
  bcast_S_S128x16384 : S_.BroadcastsInDim S128x16384 (![] : Fin 0 → Fin S128x16384.rank)
  reducesTo_S128x16384_S_d0_1 : S128x16384.ReducesTo [0, 1] S_
  h_S_ : 0 < S_.numel

variable [Facts]

def fn {F : FTy → Type} [FloatOps F] (main_arg0 : FVec F S128x16384 .f32) : IVec S_ 1 :=
  let main_v0 : FVec F S128x16384 .f32 := Host.absf main_arg0
  let main_cst : FVec F S_ .f32 := constant S_ .f32 0x7F800000#32
  let main_v1 : FVec F S128x16384 .f32 := broadcastInDim S128x16384 ![] bcast_S_S128x16384 main_cst
  let main_v2 : IVec S128x16384 1 := cmpf .olt main_v0 main_v1
  let main_c : IVec S_ 1 := constantI S_ 1 1#1
  let main_v3 : IVec S_ 1 := (fun x v => Host.reduce IntOp.andi x v reducesTo_S128x16384_S_d0_1 h_S_) main_v2 main_c
  main_v3
-- ==== Kernel.lean ====
abbrev S128x16384 : Shape := ⟨2, ![128, 16384]⟩
abbrev S_ : Shape := ⟨0, ![]⟩
abbrev S128x16512 : Shape := ⟨2, ![128, 16512]⟩
abbrev S128x15x16384 : Shape := ⟨3, ![128, 15, 16384]⟩
abbrev S128x15x128 : Shape := ⟨3, ![128, 15, 128]⟩
abbrev S128x142 : Shape := ⟨2, ![128, 142]⟩
abbrev S128x128 : Shape := ⟨2, ![128, 128]⟩
abbrev S128x1x128 : Shape := ⟨3, ![128, 1, 128]⟩
abbrev S128x16384x15 : Shape := ⟨3, ![128, 16384, 15]⟩

abbrev nBuf : Space → Nat
  | .hbm => 6
  | .vmem => 3
  | .smem => 0
  | _ => 0

abbrev bufTy : (tb : Table) → Fin (tcTables nBuf tb) → BufTy
  | .hbm, ⟨0, _⟩ => ⟨S128x16384, .f32⟩
  | .hbm, ⟨1, _⟩ => ⟨S_, .i32⟩
  | .hbm, ⟨2, _⟩ => ⟨S_, .f32⟩
  | .hbm, ⟨3, _⟩ => ⟨S128x16512, .f32⟩
  | .hbm, ⟨4, _⟩ => ⟨S128x15x16384, .f32⟩
  | .hbm, ⟨5, _⟩ => ⟨S128x16384x15, .f32⟩
  | .local _ .vmem, ⟨0, _⟩ => ⟨S128x16512, .f32⟩
  | .local _ .vmem, ⟨1, _⟩ => ⟨S128x15x128, .f32⟩
  | .local _ .vmem, ⟨2, _⟩ => ⟨S128x15x128, .f32⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![128], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let c0 : Index := 0#32
  let arg0 : BitVec 32 := BitVec.ofNat 32 (i 0).val
  let c128_i32 : BitVec 32 := 128#32
  let v0 : BitVec 32 := Scalar.muli arg0 c128_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S128x16512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x15x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S128x16384_S128x16512_000_71210 : S128x16384.Pads (![0, 7] : Fin 2 → Nat) ![0, 121] ![0, 0] S128x16512
  h_S_ : 0 < S_.numel
  h_S128x142 : 0 < S128x142.numel
  shapeCasts_S128x142_S128x142 : S128x142.ShapeCasts S128x142
  slices_S128x142_o0_0_S128x128 : S128x142.Slices ![0, 0] S128x128
  inb_S128x15x128_S128x1x128_0_0_0 : ∀ a, (![0, 0, 0] : Fin 3 → Nat) a + S128x1x128.size a ≤ S128x15x128.size a
  h_S128x1x128 : 0 < S128x1x128.numel
  shapeCasts_S128x1x128_S128x128 : S128x1x128.ShapeCasts S128x128
  shapeCasts_S128x128_S128x1x128 : S128x128.ShapeCasts S128x1x128
  slices_S128x142_o0_1_S128x128 : S128x142.Slices ![0, 1] S128x128
  inb_S128x15x128_S128x1x128_0_1_0 : ∀ a, (![0, 1, 0] : Fin 3 → Nat) a + S128x1x128.size a ≤ S128x15x128.size a
  slices_S128x142_o0_2_S128x128 : S128x142.Slices ![0, 2] S128x128
  inb_S128x15x128_S128x1x128_0_2_0 : ∀ a, (![0, 2, 0] : Fin 3 → Nat) a + S128x1x128.size a ≤ S128x15x128.size a
  slices_S128x142_o0_3_S128x128 : S128x142.Slices ![0, 3] S128x128
  inb_S128x15x128_S128x1x128_0_3_0 : ∀ a, (![0, 3, 0] : Fin 3 → Nat) a + S128x1x128.size a ≤ S128x15x128.size a
  slices_S128x142_o0_4_S128x128 : S128x142.Slices ![0, 4] S128x128
  inb_S128x15x128_S128x1x128_0_4_0 : ∀ a, (![0, 4, 0] : Fin 3 → Nat) a + S128x1x128.size a ≤ S128x15x128.size a
  slices_S128x142_o0_5_S128x128 : S128x142.Slices ![0, 5] S128x128
  inb_S128x15x128_S128x1x128_0_5_0 : ∀ a, (![0, 5, 0] : Fin 3 → Nat) a + S128x1x128.size a ≤ S128x15x128.size a
  slices_S128x142_o0_6_S128x128 : S128x142.Slices ![0, 6] S128x128
  inb_S128x15x128_S128x1x128_0_6_0 : ∀ a, (![0, 6, 0] : Fin 3 → Nat) a + S128x1x128.size a ≤ S128x15x128.size a
  slices_S128x142_o0_7_S128x128 : S128x142.Slices ![0, 7] S128x128
  inb_S128x15x128_S128x1x128_0_7_0 : ∀ a, (![0, 7, 0] : Fin 3 → Nat) a + S128x1x128.size a ≤ S128x15x128.size a
  slices_S128x142_o0_8_S128x128 : S128x142.Slices ![0, 8] S128x128
  inb_S128x15x128_S128x1x128_0_8_0 : ∀ a, (![0, 8, 0] : Fin 3 → Nat) a + S128x1x128.size a ≤ S128x15x128.size a
  slices_S128x142_o0_9_S128x128 : S128x142.Slices ![0, 9] S128x128
  inb_S128x15x128_S128x1x128_0_9_0 : ∀ a, (![0, 9, 0] : Fin 3 → Nat) a + S128x1x128.size a ≤ S128x15x128.size a
  slices_S128x142_o0_10_S128x128 : S128x142.Slices ![0, 10] S128x128
  inb_S128x15x128_S128x1x128_0_10_0 : ∀ a, (![0, 10, 0] : Fin 3 → Nat) a + S128x1x128.size a ≤ S128x15x128.size a
  slices_S128x142_o0_11_S128x128 : S128x142.Slices ![0, 11] S128x128
  inb_S128x15x128_S128x1x128_0_11_0 : ∀ a, (![0, 11, 0] : Fin 3 → Nat) a + S128x1x128.size a ≤ S128x15x128.size a
  slices_S128x142_o0_12_S128x128 : S128x142.Slices ![0, 12] S128x128
  inb_S128x15x128_S128x1x128_0_12_0 : ∀ a, (![0, 12, 0] : Fin 3 → Nat) a + S128x1x128.size a ≤ S128x15x128.size a
  slices_S128x142_o0_13_S128x128 : S128x142.Slices ![0, 13] S128x128
  inb_S128x15x128_S128x1x128_0_13_0 : ∀ a, (![0, 13, 0] : Fin 3 → Nat) a + S128x1x128.size a ≤ S128x15x128.size a
  slices_S128x142_o0_14_S128x128 : S128x142.Slices ![0, 14] S128x128
  inb_S128x15x128_S128x1x128_0_14_0 : ∀ a, (![0, 14, 0] : Fin 3 → Nat) a + S128x1x128.size a ≤ S128x15x128.size a
  transposes_S128x15x16384_S128x16384x15_0_2_1 : S128x15x16384.Transposes [0, 2, 1] S128x16384x15
  hrank0 : 0 < grid0.rank
  k0_mult1_dvd : ∀ i : grid0.Coords, 128 ∣ (k0_mult1 i).toNat
  k0_off1_inb : ∀ i : grid0.Coords, ∀ a, (k0_off1 i) a + S128x142.size a ≤ S128x16512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x16512.size a ≤ S128x16512.size a
  hwx0_0 : ∀ i : grid0.Coords, EltTy.bits .f32 = 32 ∨ (Rect.block (s := S128x16512) S128x16512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x15x128.size a ≤ S128x15x16384.size a
  hwx0_1 : ∀ i : grid0.Coords, EltTy.bits .f32 = 32 ∨ (Rect.block (s := S128x15x16384) S128x15x128.size (cc0_transform_1 i) (hinb0_1 i)).WholeWords (EltTy.packing .f32)

variable [Facts₀]

abbrev win0_0 : Pipeline.Window sig grid0 :=
  Pipeline.Window.ofSpec (Memref.whole main_v0) S128x16512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x15x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x16384 : Shape := ⟨2, ![128, 16384]⟩
abbrev S_ : Shape := ⟨0, ![]⟩
abbrev S128x16398 : Shape := ⟨2, ![128, 16398]⟩
abbrev S16384 : Shape := ⟨1, ![16384]⟩
abbrev S16384x1 : Shape := ⟨2, ![16384, 1]⟩
abbrev S15 : Shape := ⟨1, ![15]⟩
abbrev S1x15 : Shape := ⟨2, ![1, 15]⟩
abbrev S16384x15 : Shape := ⟨2, ![16384, 15]⟩
abbrev S16384x15x1 : Shape := ⟨3, ![16384, 15, 1]⟩
abbrev S128x16384x15 : Shape := ⟨3, ![128, 16384, 15]⟩

abbrev nBuf : Space → Nat
  | .hbm => 20
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S_, .i32⟩
  | .hbm, ⟨2, _⟩ => ⟨S_, .f32⟩
  | .hbm, ⟨3, _⟩ => ⟨S128x16398, .f32⟩
  | .hbm, ⟨4, _⟩ => ⟨S16384, .i32⟩
  | .hbm, ⟨5, _⟩ => ⟨S16384x1, .i32⟩
  | .hbm, ⟨6, _⟩ => ⟨S15, .i32⟩
  | .hbm, ⟨7, _⟩ => ⟨S1x15, .i32⟩
  | .hbm, ⟨8, _⟩ => ⟨S16384x15, .i32⟩
  | .hbm, ⟨9, _⟩ => ⟨S16384x15, .i32⟩
  | .hbm, ⟨10, _⟩ => ⟨S16384x15, .i32⟩
  | .hbm, ⟨11, _⟩ => ⟨S_, .i32⟩
  | .hbm, ⟨12, _⟩ => ⟨S16384x15, .i32⟩
  | .hbm, ⟨13, _⟩ => ⟨S16384x15, .i1⟩
  | .hbm, ⟨14, _⟩ => ⟨S_, .i32⟩
  | .hbm, ⟨15, _⟩ => ⟨S16384x15, .i32⟩
  | .hbm, ⟨16, _⟩ => ⟨S16384x15, .i32⟩
  | .hbm, ⟨17, _⟩ => ⟨S16384x15, .i32⟩
  | .hbm, ⟨18, _⟩ => ⟨S16384x15x1, .i32⟩
  | .hbm, ⟨19, _⟩ => ⟨S128x16384x15, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  pads_S128x16384_S128x16398_000_770 : S128x16384.Pads (![0, 7] : Fin 2 → Nat) ![0, 7] ![0, 0] S128x16398
  h_S_ : 0 < S_.numel
  bcast_S16384_S16384x1_0 : S16384.BroadcastsInDim S16384x1 (![0] : Fin 1 → Fin S16384x1.rank)
  bcast_S15_S1x15_1 : S15.BroadcastsInDim S1x15 (![1] : Fin 1 → Fin S1x15.rank)
  bcast_S16384x1_S16384x15_0_1 : S16384x1.BroadcastsInDim S16384x15 (![0, 1] : Fin 2 → Fin S16384x15.rank)
  bcast_S1x15_S16384x15_0_1 : S1x15.BroadcastsInDim S16384x15 (![0, 1] : Fin 2 → Fin S16384x15.rank)
  bcast_S_S16384x15 : S_.BroadcastsInDim S16384x15 (![] : Fin 0 → Fin S16384x15.rank)
  bcast_S16384x15_S16384x15x1_0_1 : S16384x15.BroadcastsInDim S16384x15x1 (![0, 1] : Fin 2 → Fin S16384x15x1.rank)
  gather_S128x16398_S16384x15x1_S128x16384x15_0_1_n_n_1_2_1281_wf : GatherDims.WF S128x16398 S16384x15x1 S128x16384x15 [0] [1] [] [1] [] 2 ![128, 1]

variable [Facts₀]

def gather_S128x16398_S16384x15x1_S128x16384x15_0_1_n_n_1_2_1281 : GatherDims S128x16398 S16384x15x1 S128x16384x15 where
  offsetDims := [0]
  collapsedSliceDims := [1]
  operandBatchingDims := []
  startIndicesBatchingDims := []
  startIndexMap := [1]
  indexVectorDim := 2
  sliceSizes := ![128, 1]
  wf := gather_S128x16398_S16384x15x1_S128x16384x15_0_1_n_n_1_2_1281_wf

class Facts : Prop extends Facts₀ where

variable [Facts]
-- ==== Proof.KernelSlabs.lean ====
/-
  What one grid point of the kernel leaves in its output block.

  The body loads ONE window of the padded array — all 128 rows, the 142 columns starting at the point's first
  position — and stores fifteen slabs into the `[128, 15, 128]` block: slab `k` is the window's columns
  `k .. k + 127`. Read back as one function, the block's entry `(b, k, l)` is the window's entry `(b, k + l)`.
  (The body also loads each slab's old contents before storing over it; nothing is computed from those loads.)
-/
import proofs.«152799_j48885317763666_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Slabs

open Idealize.ShloMosaic Idealize.ShloMosaic.TcCoe Idealize.SL.Sem Idealize.ShloMosaic.ValueIdx
open Cert.KernelIdeal Cert.KernelIdeal.Gen

variable {α : Type}

/-- The block of fifteen shifted copies of a 142-column window: entry `(b, k, l)` is the window's `(b, k + l)`. -/
def blockOf (W : (⟨2, ![128, 142]⟩ : Shape).Idx → α) : (⟨3, ![128, 15, 128]⟩ : Shape).Idx → α :=
  fun y => W (ix2 (y 0) ⟨(y 1).val + (y 2).val, by
    have h1 : (y 1).val < 15 := (y 1).isLt
    have h2 : (y 2).val < 128 := (y 2).isLt
    omega⟩)

/-- Columns `k .. k + 127` of the window, as a `[128, 1, 128]` slab, read at `(b, 0, l)`: the window at `(b, k + l)`. -/
theorem slab_apply (W : (⟨2, ![128, 142]⟩ : Shape).Idx → α) (k : Nat)
    (hs : (⟨2, ![128, 142]⟩ : Shape).Slices ![0, k] ⟨2, ![128, 128]⟩)
    (hc : (⟨2, ![128, 128]⟩ : Shape).ShapeCasts ⟨3, ![128, 1, 128]⟩)
    (b : Fin 128) (u : Fin 1) (l : Fin 128) (hk : k + l.val < 142) :
    shapeCast ⟨3, ![128, 1, 128]⟩ (extractStridedSlice ⟨2, ![128, 128]⟩ ![0, k] W hs) hc (ix3 b u l)
      = W (ix2 b ⟨k + l.val, hk⟩) := by
  refine (shapeCast_apply _ hc (ix3 b u l) (ix2 b l) ?_).trans ?_
  · rw [Shape.rowMajor_val_two, Shape.rowMajor_val_three]
    show b.val * 128 + l.val = (b.val * 1 + u.val) * 128 + l.val
    have hu : u.val = 0 := by omega
    rw [hu]; omega
  · exact extractStridedSlice_apply ![0, k] W hs (ix2 b l) (ix2 b ⟨k + l.val, hk⟩) fun a => match a with
      | ⟨0, _⟩ => by show b.val = 0 + b.val; omega
      | ⟨1, _⟩ => rfl

/-- Slab `k`, stored at offset `(0, k, 0)` of the block, is the block function's restriction to that rectangle. -/
theorem slab_eq_block (W : (⟨2, ![128, 142]⟩ : Shape).Idx → α) (k : Nat) (hk : k < 15)
    (hs : (⟨2, ![128, 142]⟩ : Shape).Slices ![0, k] ⟨2, ![128, 128]⟩)
    (hc : (⟨2, ![128, 128]⟩ : Shape).ShapeCasts ⟨3, ![128, 1, 128]⟩)
    (inb : ∀ a, (![0, k, 0] : Fin 3 → Nat) a + (![128, 1, 128] : Fin 3 → Nat) a ≤ (⟨3, ![128, 15, 128]⟩ : Shape).size a)
    (y : (⟨3, ![128, 1, 128]⟩ : Shape).Idx) :
    shapeCast ⟨3, ![128, 1, 128]⟩ (extractStridedSlice ⟨2, ![128, 128]⟩ ![0, k] W hs) hc y
      = blockOf W ((Rect.unit (s := ⟨3, ![128, 15, 128]⟩) ![0, k, 0] ![128, 1, 128] inb).emb y) := by
  obtain ⟨b, u, l, rfl⟩ : ∃ (b : Fin 128) (u : Fin 1) (l : Fin 128), y = ix3 b u l := ⟨y 0, y 1, y 2, eq_ix3 y⟩
  have hu : u.val = 0 := by omega
  rw [slab_apply W k hs hc b u l (by omega)]
  unfold blockOf
  refine congrArg W (funext fun a => Fin.ext ?_)
  match a with
  | ⟨0, _⟩ => show b.val = 0 + 1 * b.val; omega
  | ⟨1, _⟩ => show k + l.val = (k + 1 * u.val) + (0 + 1 * l.val); omega

variable {F : FTy → Type} [FloatOps F]

/-- The body's re-cast of the loaded window to its own shape changes nothing. -/
theorem pay2_id (v : Vec F S128x142 .f32) : k0_pay2 v = v := shapeCast_self _ _

/-- A slab cut from the re-cast window is the slab cut from the window. -/
theorem recast_slab (k : Nat) (hs : S128x142.Slices ![0, k] S128x128) (hc : S128x128.ShapeCasts S128x1x128)
    (v : Vec F S128x142 .f32) :
    shapeCast S128x1x128 (extractStridedSlice S128x128 ![0, k] (k0_pay2 v) hs) hc
      = shapeCast S128x1x128 (extractStridedSlice S128x128 ![0, k] v hs) hc := by
  rw [pay2_id]

/-- The window the body loads at grid coordinates `i`, of the padded array's staging contents `x0`. -/
def window (i : grid0.Coords) (x0 : Vec F S128x16512 .f32) : (⟨2, ![128, 142]⟩ : Shape).Idx → Elt F .f32 :=
  View.ld x0 (Rect.unit (s := S128x16512) (k0_off1 i) S128x142.size (k0_off1_inb i))

/-- WHAT THE BODY LEAVES in the output's staging buffer: the fifteen shifted copies of the window it loaded. -/
theorem out_A (c : Dev nD) (i : grid0.Coords) (a1 : Memref sig .tc .vmem S128x16512 .f32) (h1 : a1.IsWhole)
    (a2 : Memref sig .tc .vmem S128x15x128 .f32) (h2 : a2.IsWhole) (x0 : Vec F S128x16512 .f32) :
    out0_A_1 c i a1 h1 a2 h2 x0 = blockOf (window i x0) := by
  unfold out0_A_1
  rw [View.read_writes_eq_canon _ _ _ (cover0_A_1 c i a1 h1 a2 h2 x0)]
  funext y
  refine View.canon_apply_of_pieces (blockOf (window i x0)) _ ?_ y (cover0_A_1 c i a1 h1 a2 h2 x0 y)
  unfold kernelRun0_A
  dsimp only
  sl_unfold_words
  simp only [View.readAt_eq_ld, h1.read_unread, pay2_id]
  intro p hp
  simp only [List.mem_cons, List.mem_nil_iff, or_false] at hp
  rcases hp with rfl | rfl | rfl | rfl | rfl | rfl | rfl | rfl | rfl | rfl | rfl | rfl | rfl | rfl | rfl
  · intro y
    refine Eq.trans ?_ (slab_eq_block (window i x0) 14 (by decide) (by decide) (by decide) (by decide) y)
    rfl
  · intro y
    refine Eq.trans ?_ (slab_eq_block (window i x0) 13 (by decide) (by decide) (by decide) (by decide) y)
    rfl
  · intro y
    refine Eq.trans ?_ (slab_eq_block (window i x0) 12 (by decide) (by decide) (by decide) (by decide) y)
    rfl
  · intro y
    refine Eq.trans ?_ (slab_eq_block (window i x0) 11 (by decide) (by decide) (by decide) (by decide) y)
    rfl
  · intro y
    refine Eq.trans ?_ (slab_eq_block (window i x0) 10 (by decide) (by decide) (by decide) (by decide) y)
    rfl
  · intro y
    refine Eq.trans ?_ (slab_eq_block (window i x0) 9 (by decide) (by decide) (by decide) (by decide) y)
    rfl
  · intro y
    refine Eq.trans ?_ (slab_eq_block (window i x0) 8 (by decide) (by decide) (by decide) (by decide) y)
    rfl
  · intro y
    refine Eq.trans ?_ (slab_eq_block (window i x0) 7 (by decide) (by decide) (by decide) (by decide) y)
    rfl
  · intro y
    refine Eq.trans ?_ (slab_eq_block (window i x0) 6 (by decide) (by decide) (by decide) (by decide) y)
    exact congrFun (recast_slab 6 (by decide) (by decide) (window i x0)) y
  · intro y
    refine Eq.trans ?_ (slab_eq_block (window i x0) 5 (by decide) (by decide) (by decide) (by decide) y)
    exact congrFun (recast_slab 5 (by decide) (by decide) (window i x0)) y
  · intro y
    refine Eq.trans ?_ (slab_eq_block (window i x0) 4 (by decide) (by decide) (by decide) (by decide) y)
    exact congrFun (recast_slab 4 (by decide) (by decide) (window i x0)) y
  · intro y
    refine Eq.trans ?_ (slab_eq_block (window i x0) 3 (by decide) (by decide) (by decide) (by decide) y)
    exact congrFun (recast_slab 3 (by decide) (by decide) (window i x0)) y
  · intro y
    refine Eq.trans ?_ (slab_eq_block (window i x0) 2 (by decide) (by decide) (by decide) (by decide) y)
    exact congrFun (recast_slab 2 (by decide) (by decide) (window i x0)) y
  · intro y
    refine Eq.trans ?_ (slab_eq_block (window i x0) 1 (by decide) (by decide) (by decide) (by decide) y)
    exact congrFun (recast_slab 1 (by decide) (by decide) (window i x0)) y
  · intro y
    refine Eq.trans ?_ (slab_eq_block (window i x0) 0 (by decide) (by decide) (by decide) (by decide) y)
    exact congrFun (recast_slab 0 (by decide) (by decide) (window i x0)) y

end Cert.KernelIdeal.Slabs

end
-- ==== Proof.Spec.lean ====
/-
  The region gather as one function of the input array.

  For a batch row `b` of a sequence `x[b, 0 .. 16383]`, the padded row holds `x[b, j - 7]` at the positions
  `7 ≤ j < 16391` and the padding value `z` at every other position, however far to the right the padding goes;
  the result at `(b, s, k)` is the padded row at `s + k`: the fifteen neighbours of position `s`, seven to each
  side, the padding value beyond the two ends of the sequence.
-/
import Idealize.ShloMosaic.Lib.ValueIdx

noncomputable section

namespace Cert.Regions

open Idealize.ShloMosaic Idealize.ShloMosaic.ValueIdx

variable {α : Type}

/-- Position `j` of batch row `b` padded with `z`: seven entries to the left, as many as wanted to the right. -/
def padded (z : α) (x : (⟨2, ![128, 16384]⟩ : Shape).Idx → α) (b : Fin 128) (j : Nat) : α :=
  if h : 7 ≤ j ∧ j < 16391 then x (ix2 b ⟨j - 7, by omega⟩) else z

/-- The neighbourhoods laid out with the offset inside the neighbourhood as the MIDDLE axis: entry `(b, k, s)` is the
    padded row `b` at `s + k`. -/
def slabs (z : α) (x : (⟨2, ![128, 16384]⟩ : Shape).Idx → α) : (⟨3, ![128, 15, 16384]⟩ : Shape).Idx → α :=
  fun i => padded z x (i 0) ((i 2).val + (i 1).val)

/-- The fifteen-wide neighbourhood of every position: entry `(b, s, k)` is the padded row `b` at `s + k`. -/
def regions (z : α) (x : (⟨2, ![128, 16384]⟩ : Shape).Idx → α) : (⟨3, ![128, 16384, 15]⟩ : Shape).Idx → α :=
  fun i => padded z x (i 0) ((i 1).val + (i 2).val)

/-- The padding value both programs use: the integer zero converted to the float format. -/
def zpad {F : FTy → Type} [FloatOps F] : Elt F .f32 :=
  (sitofp .f32 (constantI (⟨0, ![]⟩ : Shape) 32 0#32) : FVec F ⟨0, ![]⟩ .f32) ix0

end Cert.Regions

end
-- ==== Proof.PadRead.lean ====
/-
  A row padded on the host, read at an index.

  Padding a `[128, 16384]` array with seven entries on the left of every row and `hi` entries on the right (none
  between the entries, none on the batch axis) gives, at `(b, j)`, the entry `x[b, j - 7]` when `7 ≤ j < 16391` and
  the padding value otherwise — whatever `hi` is: the two programs pad to different widths and read only the
  positions both widths have.
-/
import proofs.«152799_j48885317763666_2_alg».proof.Proof.Spec
import Idealize.ShloMosaic.Lib.KernelVsHost

noncomputable section

namespace Cert.Regions

open Idealize.ShloMosaic Idealize.ShloMosaic.ValueIdx

variable {α : Type}

/-- The padded array at `(b, j)` is the padded row `b` at `j`. -/
theorem pad_row_apply {W hi : Nat} (x : (⟨2, ![128, 16384]⟩ : Shape).Idx → α) {u : Shape} (v : u.Idx → α)
    (h : (⟨2, ![128, 16384]⟩ : Shape).Pads (![0, 7] : Fin 2 → Nat) ![0, hi] ![0, 0] ⟨2, ![128, W]⟩) (hu : 0 < u.numel)
    (b : Fin 128) (j : Fin W) :
    pad ⟨2, ![128, W]⟩ ![0, 7] ![0, hi] ![0, 0] x v h hu (ix2 b j) = padded (v (Shape.Idx.first hu)) x b j.val := by
  unfold padded
  by_cases hj : 7 ≤ j.val ∧ j.val < 16391
  · rw [dif_pos hj]
    exact pad_apply_of_inside _ _ _ x v h hu (ix2 b j) (ix2 b ⟨j.val - 7, by omega⟩) fun a => match a with
      | ⟨0, _⟩ => by show b.val = 0 + b.val * (0 + 1); omega
      | ⟨1, _⟩ => by show j.val = 7 + (j.val - 7) * (0 + 1); omega
  · rw [dif_neg hj]
    refine pad_apply_of_not_inside _ _ _ x v h hu (ix2 b j) 1 ?_
    show ¬(7 ≤ j.val ∧ (j.val - 7) % (0 + 1) = 0 ∧ (j.val - 7) / (0 + 1) < 16384)
    intro hh
    apply hj
    have := hh.2.2
    rw [Nat.zero_add, Nat.div_one] at this
    omega

end Cert.Regions

end
-- ==== Proof.KernelValue.lean ====
/-
  The kernel's result array is the region gather of the specification.

  Before the region the host pads every row: seven zeros on the left, 121 on the right (width 16512 = 129 · 128).
  The region has 128 grid points; every point sees the whole padded array, loads the 142 columns from `128 t` on,
  and leaves in its `[128, 15, 128]` block the fifteen shifted copies of that window: block entry `(b, k, l)` is
  the padded row `b` at `128 t + l + k`. Point `t` writes its block back at columns `128 t .. 128 t + 127` of the
  `[128, 15, 16384]` array, so the blocks tile it and the array's entry `(b, k, s)` is the padded row `b` at
  `s + k`. After the region the host swaps the last two axes: entry `(b, s, k)` of the result is the padded row
  `b` at `s + k`.
-/
import proofs.«152799_j48885317763666_2_alg».proof.Proof.KernelSlabs
import proofs.«152799_j48885317763666_2_alg».proof.Proof.PadRead
import Idealize.ShloMosaic.Lib.Pipeline.Value
import Idealize.ShloMosaic.Lib.ValueLayout
import Idealize.ShloMosaic.Lib.StableHlo.Run

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Slabs Cert.Regions

variable {F : FTy → Type} [FloatOps F]
variable (m : (ℓ : Loc nD τ sig) → Buf (Elt F) ℓ) (ρ : Dev nD → PrngReg)

/-- The padded row read at two equal places. -/
theorem padded_congr {α : Type} (z : α) (x : (⟨2, ![128, 16384]⟩ : Shape).Idx → α) {b b' : Fin 128} {n n' : Nat}
    (hb : b.val = b'.val) (hn : n = n') : padded z x b n = padded z x b' n' := by
  obtain rfl : b = b' := Fin.ext hb
  subst hn
  rfl

/-! ## The padded array as the region finds it -/

/-- The region's input array is the host's padding of the argument; at `(b, j)` it is the padded row `b` at `j`. -/
theorem V_apply (c : Dev nD) (b : Fin 128) (j : Fin 16512) :
    (V m c main_v0 : S128x16512.Idx → Elt F .f32) (ix2 b j)
      = padded zpad (m ((c : Thread nD τ).loc main_arg0)) b j.val := by
  have e : (V m c main_v0 : S128x16512.Idx → Elt F .f32)
      = pad S128x16512 ![0, 7] ![0, 121] ![0, 0] (m ((c : Thread nD τ).loc main_arg0))
          (sitofp .f32 (constantI S_ 32 0#32) : FVec F S_ .f32) pads_S128x16384_S128x16512_000_71210 h_S_ := by
    dsimp only [Gen.V, Gen.V0]
    simp only [hostOps0, hostOps0_1, List.flatten_cons, List.flatten_nil, List.append_nil, List.cons_append,
      List.nil_append]
    after_results
    rfl
  rw [e]
  exact pad_row_apply (W := 16512) (hi := 121) _ _ _ _ b j

/-- Every grid point's input block is the whole padded array: the window's index map is constant. -/
theorem in_idx : ∀ t : Fin cfg0.N, win0_0.index t (0 : Fin 2) = 0 ∧ win0_0.index t (1 : Fin 2) = 0 :=
  (by decide +kernel : ∀ t : Fin grid0.N, _)

theorem iblk_apply (c : Dev nD) (t : Fin cfg0.N) (b : Fin 128) (j : Fin 16512) :
    (iblk m c 0 t : S128x16512.Idx → Elt F .f32) (ix2 b j) = (V m c main_v0 : S128x16512.Idx → Elt F .f32) (ix2 b j) := by
  show V m c main_v0 (((cfg0.win 0).blk t).view.emb (ix2 b j)) = V m c main_v0 (ix2 b j)
  obtain ⟨e0, e1⟩ := in_idx t
  refine congrArg (V m c main_v0) (funext fun a => Fin.ext ?_)
  match a with
  | ⟨0, _⟩ => show win0_0.index t (0 : Fin 2) * 128 + 1 * b.val = b.val; rw [e0]; omega
  | ⟨1, _⟩ => show win0_0.index t (1 : Fin 2) * 16512 + 1 * j.val = j.val; rw [e1]; omega

/-! ## What one point leaves -/

/-- The loaded window at `(b, j)`: the staged array at `(b, 128 i + j)`. -/
theorem window_apply (i : grid0.Coords) (x0 : Vec F S128x16512 .f32) (b : Fin 128) (j : Fin 142) :
    window i x0 (ix2 b j) = x0 (ix2 b ⟨128 * (i 0).val + j.val, by have hi : (i 0).val < 128 := (i 0).isLt; omega⟩) := by
  unfold window
  show x0 ((Rect.unit (s := S128x16512) (k0_off1 i) S128x142.size (k0_off1_inb i)).idx (ix2 b j)) = _
  refine congrArg x0 (funext fun a => Fin.ext ?_)
  match a with
  | ⟨0, _⟩ => show (k0_off1 i) 0 + 1 * b.val = b.val; rw [k0_off1_eq]; show 0 + 1 * b.val = b.val; omega
  | ⟨1, _⟩ =>
    show (k0_off1 i) 1 + 1 * j.val = 128 * (i 0).val + j.val
    rw [k0_off1_eq]; show 128 * (i 0).val + 1 * j.val = 128 * (i 0).val + j.val; omega

/-- The grid has one axis: a point's coordinate is its number. -/
theorem coord_eq : ∀ t : Fin cfg0.N, ((grid0.coords t) 0).val = t.val :=
  (by decide +kernel : ∀ t : Fin grid0.N, _)

/-- WHAT POINT `t` LEAVES in its output block: entry `(b, k, l)` is the padded row `b` at `128 t + l + k`. -/
theorem point_block (c : Dev nD) (t : Fin cfg0.N) (y : (⟨3, ![128, 15, 128]⟩ : Shape).Idx) :
    outsAt0 m c t y = padded zpad (m ((c : Thread nD τ).loc main_arg0)) (y 0) (128 * t.val + (y 2).val + (y 1).val) := by
  obtain ⟨b, k, l, rfl⟩ : ∃ (b : Fin 128) (k : Fin 15) (l : Fin 128), y = ix3 b k l := ⟨y 0, y 1, y 2, eq_ix3 y⟩
  have hN : cfg0.N = 128 := N_0
  have ht : t.val < 128 := by have := t.isLt; omega
  unfold outsAt0
  rw [out_A c (grid0.coords t) (ms0_0 t) (hs0_0 t) (ms0_1 t) (hs0_1 t) (iblk m c 0 t)]
  show window (grid0.coords t) (iblk m c 0 t) (ix2 b ⟨k.val + l.val, by omega⟩) = _
  rw [window_apply (grid0.coords t) (iblk m c 0 t) b ⟨k.val + l.val, by omega⟩]
  refine (iblk_apply m c t b _).trans ((V_apply m c b _).trans ?_)
  refine padded_congr _ _ rfl ?_
  show 128 * ((grid0.coords t) 0).val + (k.val + l.val) = 128 * t.val + l.val + k.val
  rw [coord_eq t]; omega

/-! ## From the blocks to the array -/

/-- The output window's index map: point `t` writes block `(0, 0, t)`. -/
theorem out_idx : ∀ t : Fin cfg0.N, win0_1.index t (0 : Fin 3) = 0 ∧ win0_1.index t (1 : Fin 3) = 0
    ∧ win0_1.index t (2 : Fin 3) = t.val :=
  (by decide +kernel : ∀ t : Fin grid0.N, _)

/-- WHAT POINT `t` WRITES BACK is block `t` of the middle-axis layout of the region gather. -/
theorem flushed_eq (c : Dev nD) (t : Fin cfg0.N) :
    (dats m 0 c).flushed 1 t
      = ((cfg0.win 1).blk t).view.read (Elt F) (slabs zpad (m ((c : Thread nD τ).loc main_arg0))) := by
  show (cfg0.win 1).cut (grid0.coords t) ((dats m 0 c).after 1 t) = _
  rw [after0_1]
  obtain ⟨e0, e1, e2⟩ := out_idx t
  funext y
  refine (point_block m c t y).trans ?_
  show _ = slabs zpad (m ((c : Thread nD τ).loc main_arg0)) (((cfg0.win 1).blk t).view.emb y)
  unfold slabs
  refine padded_congr _ _ ?_ ?_
  · show (y 0).val = win0_1.index t (0 : Fin 3) * 128 + 1 * (y 0).val; rw [e0]; omega
  · show 128 * t.val + (y 2).val + (y 1).val
      = (win0_1.index t (2 : Fin 3) * 128 + 1 * (y 2).val) + (win0_1.index t (1 : Fin 3) * 15 + 1 * (y 1).val)
    rw [e1, e2]; omega

/-- An index of the array is in point `t`'s block iff each coordinate is in the block's range on its axis. -/
theorem mem_blk (t : Fin cfg0.N) (i : S128x15x16384.Idx) :
    i ∈ ((cfg0.win 1).blk t).view.set ↔ ∀ a : Fin 3, win0_1.index t a * S128x15x128.size a ≤ (i a).val
      ∧ (i a).val < win0_1.index t a * S128x15x128.size a + S128x15x128.size a := by
  show i ∈ ((View.whole main_v1).slice (win0_1.rect t)).set ↔ _
  rw [View.set_slice_whole, Rect.mem_set_unit]
  exact Iff.rfl

/-- THE ARRAY after the region: the middle-axis layout of the region gather (the blocks tile it: column `s` is in
    the block of point `s / 128`). -/
theorem final (c : Dev nD) :
    (dats m 0 c).arrAt 1 cfg0.N = slabs zpad (m ((c : Thread nD τ).loc main_arg0)) :=
  (dats m 0 c).arrAt_eq_of_cover 1 (slabs zpad (m ((c : Thread nD τ).loc main_arg0)))
    (fun t _ => flushed_eq m c t) fun i => by
      have hN : cfg0.N = 128 := N_0
      have h0 : (i 0).val < 128 := (i 0).isLt
      have h1 : (i 1).val < 15 := (i 1).isLt
      have h2 : (i 2).val < 16384 := (i 2).isLt
      refine ⟨⟨(i 2).val / 128, by omega⟩, flush0_1 _, ?_⟩
      obtain ⟨e0, e1, e2⟩ := out_idx ⟨(i 2).val / 128, by omega⟩
      rw [mem_blk]
      intro a
      match a with
      | ⟨0, _⟩ =>
        show win0_1.index _ (0 : Fin 3) * 128 ≤ (i 0).val ∧ (i 0).val < win0_1.index _ (0 : Fin 3) * 128 + 128
        rw [e0]; omega
      | ⟨1, _⟩ =>
        show win0_1.index _ (1 : Fin 3) * 15 ≤ (i 1).val ∧ (i 1).val < win0_1.index _ (1 : Fin 3) * 15 + 15
        rw [e1]; omega
      | ⟨2, _⟩ =>
        show win0_1.index _ (2 : Fin 3) * 128 ≤ (i 2).val ∧ (i 2).val < win0_1.index _ (2 : Fin 3) * 128 + 128
        rw [e2]; show (i 2).val / 128 * 128 ≤ (i 2).val ∧ (i 2).val < (i 2).val / 128 * 128 + 128; omega

/-! ## The host's transpose after the region, and the run -/

/-- The program's result: the array the region leaves with its last two axes swapped is the region gather. -/
theorem result_eq (c : Dev nD) :
    Pipeline.afterTail₀ cfgs (dats m) 0 (V0 m) [hostOps1] c main_v2
      = regions zpad (m ((c : Thread nD τ).loc main_arg0)) := by
  unfold Pipeline.afterTail₀
  show StableHlo.after hostOps1 _ (Proc.devRef .tc main_v2) = _
  after_results
  rw [Pipeline.withArrays_arr spec0 launch0.win.arr_inj c _ _ 1, final m c]
  funext i
  obtain ⟨b, s, k, rfl⟩ : ∃ (b : Fin 128) (s : Fin 16384) (k : Fin 15), i = ix3 b s k := ⟨i 0, i 1, i 2, eq_ix3 i⟩
  exact transpose_ix3_021_apply _ _ b s k

/-- The frame run re-posted: the result array at the region gather of the argument, the argument unchanged. -/
theorem run : θ_run defs (onTc (τ := τ) (main (F := F))) ⟨m, fun _ => 0, ρ⟩ fun r => ∀ c : Dev nD,
      r.2.mem ((c : Thread nD τ).loc main_v2) = regions zpad (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.RegionValue

end
-- ==== Proof.RefValue.lean ====
/-
  The reference, index by index, is the region gather of the specification.

  The reference pads every row with seven zeros on each side (width 16398), builds the index table
  `idx[s, k] = s + k` from two iotas, wraps negative indices by the row's width — none is negative — and gathers
  `xp[b, idx[s, k]]`, each start index clamped into `[0, 16397]` — none leaves that range, since
  `s + k ≤ 16383 + 14`. So entry `(b, s, k)` is the padded row `b` at `s + k`.
-/
import proofs.«152799_j48885317763666_2_alg».proof.Proof.Gen.ReferenceIdeal.Read
import proofs.«152799_j48885317763666_2_alg».proof.Proof.PadRead
import Idealize.ShloMosaic.Lib.DynamicIndex

noncomputable section

namespace Cert.ReferenceIdeal.RefValue

open Idealize.ShloMosaic Idealize.ShloMosaic.ValueIdx
open Cert.ReferenceIdeal Cert.ReferenceIdeal.Gen Cert.ReferenceIdeal.Read Cert.Regions

variable {α : Type}

/-- The row gather read at `(b, s, k)`: the operand's row `b` at the start index `idx[s, k, 0]`, read signed and
    clamped into `[0, 16397]` — axis 0 is copied whole (the offset axis), axis 1 is the collapsed, indexed one. -/
theorem gather_rows_apply {w : Nat} (x : S128x16398.Idx → α) (idx : IVec S16384x15x1 w)
    (b : Fin 128) (s : Fin 16384) (k : Fin 15) (n : Nat)
    (hn : min (idx (ix3 s k (0 : Fin 1))).toInt.toNat (16398 - 1) = n) (hlt : n < 16398) :
    Host.gather gather_S128x16398_S16384x15x1_S128x16384x15_0_1_n_n_1_2_1281 x idx (ix3 b s k)
      = x (ix2 b ⟨n, hlt⟩) := by
  unfold Host.gather
  refine congrArg x (funext fun a => Fin.ext ?_)
  match a with
  | ⟨0, _⟩ =>
    show GatherDims.start _ (ix3 b s k) idx 0 + GatherDims.batchCoord _ (ix3 b s k) 0 + GatherDims.offCoord _ (ix3 b s k) 0 = b.val
    rw [GatherDims.batchCoord_eq_zero _ _ _ List.not_mem_nil]
    have hs : GatherDims.start gather_S128x16398_S16384x15x1_S128x16384x15_0_1_n_n_1_2_1281 (ix3 b s k) idx 0 = 0 := by
      unfold GatherDims.start
      rw [dif_neg (by decide)]
    have ho : GatherDims.offCoord gather_S128x16398_S16384x15x1_S128x16384x15_0_1_n_n_1_2_1281 (ix3 b s k) 0 = b.val := by
      unfold GatherDims.offCoord
      rw [dif_pos (by decide)]
      rfl
    rw [hs, ho]; omega
  | ⟨1, _⟩ =>
    show GatherDims.start _ (ix3 b s k) idx 1 + GatherDims.batchCoord _ (ix3 b s k) 1 + GatherDims.offCoord _ (ix3 b s k) 1
      = n
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S128x16398_S16384x15x1_S128x16384x15_0_1_n_n_1_2_1281.startIndexMap from
      List.mem_singleton.mpr rfl)]
    have hsi : gather_S128x16398_S16384x15x1_S128x16384x15_0_1_n_n_1_2_1281.siIdx (ix3 b s k)
        ⟨List.idxOf (1 : Fin 2) gather_S128x16398_S16384x15x1_S128x16384x15_0_1_n_n_1_2_1281.startIndexMap,
          List.idxOf_lt_length_iff.2 (List.mem_singleton.mpr rfl)⟩ = ix3 s k (0 : Fin 1) := by
      funext c; refine Fin.ext ?_
      match c with
      | ⟨0, _⟩ => rfl
      | ⟨1, _⟩ => rfl
      | ⟨2, _⟩ => rfl
    rw [hsi]
    exact hn

variable {F : FTy → Type} [FloatOps F]

/-- The index table before the wrap: `s + k`, as 32-bit words. -/
theorem sum_apply (s : Fin 16384) (k : Fin 15) :
    val_main_v7 (F := F) (ix2 s k) = BitVec.ofNat 32 (s.val + k.val) := by
  rw [val_main_v7_apply, val_main_v5_apply, val_main_v2_apply, val_main_v1_apply, val_main_v6_apply, val_main_v4_apply,
    val_main_v3_apply, BitVec.ofNat_add]
  rfl

/-- The table after the wrap of negative indices and with its trailing unit axis: still `s + k`, none being negative. -/
theorem table_apply (s : Fin 16384) (k : Fin 15) :
    val_main_v13 (F := F) (ix3 s k (0 : Fin 1)) = BitVec.ofNat 32 (s.val + k.val) := by
  rw [val_main_v13_apply]
  have e : idx_main_v13 (ix3 s k (0 : Fin 1)) = ix2 s k :=
    funext fun a => Fin.ext (by match a with | ⟨0, _⟩ => rfl | ⟨1, _⟩ => rfl)
  rw [e, val_main_v12_apply, val_main_v9_apply, val_main_v8_apply, val_main_c_0_apply, sum_apply]
  have hnn : 0 ≤ (BitVec.ofNat 32 (s.val + k.val)).toInt := by
    rw [toInt_ofNat_of_lt (by omega)]; omega
  have hlt : (BitVec.ofNat 32 (s.val + k.val)).slt 0#32 = false := by
    simp only [BitVec.slt, BitVec.toInt_zero, decide_eq_false_iff_not, Int.not_lt]
    exact hnn
  show (if BitVec.ofBool ((BitVec.ofNat 32 (s.val + k.val)).slt 0#32) = 1 then _ else _) = _
  rw [hlt]
  rfl

/-- THE REFERENCE's result is the region gather of its argument, with the converted zero as padding. -/
theorem reference_eq (x0 : (⟨S128x16384, .f32⟩ : BufTy).Contents (Elt F)) :
    val_main_v14 (F := F) x0 = regions (zpad (F := F)) x0 := by
  funext i
  obtain ⟨b, s, k, rfl⟩ : ∃ (b : Fin 128) (s : Fin 16384) (k : Fin 15), i = ix3 b s k := ⟨i 0, i 1, i 2, eq_ix3 i⟩
  unfold val_main_v14
  have hn : min (val_main_v13 (F := F) (ix3 s k (0 : Fin 1))).toInt.toNat (16398 - 1) = s.val + k.val := by
    rw [table_apply, toInt_ofNat_of_lt (by omega), Int.toNat_natCast]; omega
  rw [gather_rows_apply _ _ b s k (s.val + k.val) hn (by omega)]
  unfold val_main_v0
  exact (pad_row_apply (W := 16398) (hi := 7) x0 (val_main_call0_v0 (F := F)) _ _ b ⟨s.val + k.val, by omega⟩).trans rfl

end Cert.ReferenceIdeal.RefValue

end
-- ==== Proof.lean ====
/-
  The fifteen-wide neighbourhood gather `out[b, s, k] = xp[b, s + k]` of a `[128, 16384]` array, where `xp` is
  each row padded with seven zeros on either side: a tiled kernel against a host gather.

  Both programs move data and compute nothing. The kernel pads each row to width 16512, and each of its 128 grid
  points copies fifteen shifted 128-column slabs of a 142-column window into a `[128, 15, 128]` block; the blocks
  tile a `[128, 15, 16384]` array, which the host then transposes to `[128, 16384, 15]`. The reference pads each
  row to width 16398, builds the index table `s + k` and gathers with it. Read index by index, either result at
  `(b, s, k)` is `x[b, s + k - 7]` where `7 ≤ s + k < 16391` and the padding value — the integer zero converted to
  the float format, the same term in both programs — elsewhere (`Cert.Regions.regions`): the two paddings differ
  only at positions past 16397, which neither program reads, the reference's wrap of negative indices never fires
  and its clamp into `[0, 16397]` never binds, since `0 ≤ s + k ≤ 16383 + 14`. No arithmetic law of the extended
  reals is used, so the finiteness of the input is not needed.

  The three frames are the generated frame runs (the reference's, its generated run with the result dropped); the
  ideal pass rewrote nothing, so the kernel's idealization is the kernel's own text; the value claim states both
  runs' results as the one function of the argument.
-/
import proofs.«152799_j48885317763666_2_alg».proof.Defs
import proofs.«152799_j48885317763666_2_alg».proof.Proof.Gen.Kernel
import proofs.«152799_j48885317763666_2_alg».proof.Proof.Gen.Kernel.Skeleton
import proofs.«152799_j48885317763666_2_alg».proof.Proof.Gen.Kernel.Launch
import proofs.«152799_j48885317763666_2_alg».proof.Proof.Gen.Kernel.Points
import proofs.«152799_j48885317763666_2_alg».proof.Proof.Gen.Kernel.Frame
import proofs.«152799_j48885317763666_2_alg».proof.Proof.Gen.KernelIdeal
import proofs.«152799_j48885317763666_2_alg».proof.Proof.Gen.KernelIdeal.Skeleton
import proofs.«152799_j48885317763666_2_alg».proof.Proof.Gen.KernelIdeal.Launch
import proofs.«152799_j48885317763666_2_alg».proof.Proof.Gen.KernelIdeal.Points
import proofs.«152799_j48885317763666_2_alg».proof.Proof.Gen.KernelIdeal.Frame
import proofs.«152799_j48885317763666_2_alg».proof.Proof.Gen.ReferenceIdeal
import proofs.«152799_j48885317763666_2_alg».proof.Proof.Gen.ReferenceIdeal.Run
import proofs.«152799_j48885317763666_2_alg».proof.Proof.Gen.ReferenceIdeal.Read
import proofs.«152799_j48885317763666_2_alg».proof.Proof.Gen.Pre_finite_inputs
import proofs.«152799_j48885317763666_2_alg».proof.Proof.KernelValue
import proofs.«152799_j48885317763666_2_alg».proof.Proof.RefValue
import Idealize.ShloMosaic.Adequacy
import Idealize.ShloMosaic.Init

noncomputable section

namespace Cert.Proof

open Idealize.ShloMosaic Idealize.SL.Sem

/-- The kernel as printed runs, and leaves its argument alone. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the region gather of the argument: the kernel's padded, tiled and transposed copy, and the
    reference's gather by the index table `s + k`, are the same function of the argument, index by index. -/
theorem algebraic : Cert.algebraic_KernelIdeal_ReferenceIdeal := by
  intro m ρ m' ρ' _ hagree
  refine ⟨_, Cert.KernelIdeal.RegionValue.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefValue.reference_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
